-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 13
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .bf16⟩
  | .hbm, ⟨10, _⟩ => ⟨S10000x128, .f32⟩
  | .hbm, ⟨11, _⟩ => ⟨S10000x128, .bf16⟩
  | .hbm, ⟨12, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S10000x128, .bf16⟩
  | .local _ .vmem, ⟨13, _⟩ => ⟨S1x128, .f32⟩
  | .local _ .vmem, ⟨14, _⟩ => ⟨S400x128, .f32⟩
  | .local _ .vmem, ⟨15, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  reduces_S400x128_S400 : S400x128.Reduces [1] S400
  shapeCasts_S400_S400x1 : S400.ShapeCasts S400x1
  broadcasts_S400x1_S400x128 : S400x1.Broadcasts S400x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBoundary.lean ====
/-
  The buffer contents of the kernel program at the boundaries of its three kernel regions.

  The program is three kernel regions among three stretches of host operations: two reshapes of the biases before the
  first region, and a conversion to bf16 of each of the first two regions' outputs before the next region. The run
  folds the buffer contents through these segments from the launch memory. Read back through that fold: each input array
  a region takes is still what was launched (no host operation and no region writes an argument), each reshaped bias is
  the launched bias at shape [1,128], each converted buffer is the preceding region's output array converted, and the
  result buffer is the last region's output array.
-/
import proofs.«113815_g45810121179222_cont_sun_c4_534_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The host stretches, at any buffer contents

Each stretch of host operations between two kernel regions is read here at ARBITRARY contents `W`: what its result
buffers hold afterwards, and that every other buffer keeps what it held. -/

/-- The first stretch (two reshapes, into `main_v0` and `main_v1`) leaves every other buffer alone. -/
theorem hostOps0_other (W : Valuation τ sig (Elt F)) (b : Ref sig .tc) (h0 : b ≠ main_v0) (h1 : b ≠ main_v1) :
    StableHlo.after hostOps0 W (Proc.devRef .tc b) = W (Proc.devRef .tc b) :=
  (reshape_result_ne _ _ _ _ _ _ _ h1).trans (reshape_result_ne _ _ _ _ _ _ _ h0)

/-- The second stretch (one conversion, into `main_v3`) leaves every other buffer alone. -/
theorem hostOps1_other (W : Valuation τ sig (Elt F)) (b : Ref sig .tc) (h : b ≠ main_v3) :
    StableHlo.after hostOps1 W (Proc.devRef .tc b) = W (Proc.devRef .tc b) :=
  unary_result_ne _ _ _ _ _ _ h

/-- The third stretch (one conversion, into `main_v5`) leaves every other buffer alone. -/
theorem hostOps2_other (W : Valuation τ sig (Elt F)) (b : Ref sig .tc) (h : b ≠ main_v5) :
    StableHlo.after hostOps2 W (Proc.devRef .tc b) = W (Proc.devRef .tc b) :=
  unary_result_ne _ _ _ _ _ _ h

/-- After the first stretch `main_v0` holds the first bias, `main_arg3`, as a [1,128] array. -/
theorem hostOps0_v0 (W : Valuation τ sig (Elt F)) :
    StableHlo.after hostOps0 W (Proc.devRef .tc main_v0)
      = shapeCast S1x128 (W (Proc.devRef .tc main_arg3)) shapeCasts_S128_S1x128 := by
  after_results
  rfl

/-- After the first stretch `main_v1` holds the second bias, `main_arg5`, as a [1,128] array. -/
theorem hostOps0_v1 (W : Valuation τ sig (Elt F)) :
    StableHlo.after hostOps0 W (Proc.devRef .tc main_v1)
      = shapeCast S1x128 (W (Proc.devRef .tc main_arg5)) shapeCasts_S128_S1x128 := by
  after_results
  rfl

/-- After the second stretch `main_v3` holds `main_v2` converted to bf16. -/
theorem hostOps1_v3 (W : Valuation τ sig (Elt F)) :
    StableHlo.after hostOps1 W (Proc.devRef .tc main_v3)
      = truncf .bf16 (W (Proc.devRef .tc main_v2)) bitsLt_bf16_f32 := by
  after_results

/-- After the third stretch `main_v5` holds `main_v4` converted to bf16. -/
theorem hostOps2_v5 (W : Valuation τ sig (Elt F)) :
    StableHlo.after hostOps2 W (Proc.devRef .tc main_v5)
      = truncf .bf16 (W (Proc.devRef .tc main_v4)) bitsLt_bf16_f32 := by
  after_results

/-! ## The buffer contents at the regions' entries, walked back through the run -/

variable (m : (ℓ : Loc nD τ sig) → Buf (Elt F) ℓ) (ρ : Dev nD → PrngReg)

/-- At the first region's entry the features are as launched. -/
theorem V1_main_arg0 (c : Dev nD) : V1 m ρ c main_arg0 = m ((c : Thread nD τ).loc main_arg0) :=
  (hostOps0_other (W0 m ρ c) main_arg0 (by decide) (by decide)).trans rfl

/-- At the first region's entry the first weights are as launched. -/
theorem V1_main_arg2 (c : Dev nD) : V1 m ρ c main_arg2 = m ((c : Thread nD τ).loc main_arg2) :=
  (hostOps0_other (W0 m ρ c) main_arg2 (by decide) (by decide)).trans rfl

/-- A buffer that the first stretch, the first region and the second stretch all leave alone holds at the second
    region's entry what it held at launch. -/
theorem V3_of_untouched (c : Dev nD) (b : Ref sig .tc) (h0 : b ≠ main_v0) (h1 : b ≠ main_v1)
    (hr : ∀ w, Pipeline.arrRef spec0 w ≠ b) (h3 : b ≠ main_v3) :
    V3 m ρ c b = m ((c : Thread nD τ).loc b) :=
  calc W3 m ρ c (Proc.devRef .tc b)
    _ = W2 m ρ c (Proc.devRef .tc b) := hostOps1_other _ b h3
    _ = W1 m ρ c (Proc.devRef .tc b) := W2_of_ne m ρ c b hr
    _ = W0 m ρ c (Proc.devRef .tc b) := hostOps0_other _ b h0 h1
    _ = m ((c : Thread nD τ).loc b) := rfl

/-- At the second region's entry the adjacency is as launched. -/
theorem V3_main_arg1 (c : Dev nD) : V3 m ρ c main_arg1 = m ((c : Thread nD τ).loc main_arg1) :=
  V3_of_untouched m ρ c main_arg1 (by decide) (by decide) (by decide) (by decide)

/-- At the second region's entry the second weights are as launched. -/
theorem V3_main_arg4 (c : Dev nD) : V3 m ρ c main_arg4 = m ((c : Thread nD τ).loc main_arg4) :=
  V3_of_untouched m ρ c main_arg4 (by decide) (by decide) (by decide) (by decide)

/-- At the second region's entry `main_v3` holds the first region's output, converted to bf16. -/
theorem V3_main_v3 (c : Dev nD) :
    V3 m ρ c main_v3 = truncf .bf16 ((dat0 (V1 m ρ) c).arrAt 2 cfg0.N) bitsLt_bf16_f32 :=
  (hostOps1_v3 (W2 m ρ c)).trans (congrArg (fun a => truncf .bf16 a bitsLt_bf16_f32) (W2_arr m ρ c 2))

/-- At the second region's entry `main_v0` holds the first bias as a [1,128] array. -/
theorem V3_main_v0 (c : Dev nD) :
    V3 m ρ c main_v0 = shapeCast S1x128 (m ((c : Thread nD τ).loc main_arg3)) shapeCasts_S128_S1x128 :=
  calc W3 m ρ c (Proc.devRef .tc main_v0)
    _ = W2 m ρ c (Proc.devRef .tc main_v0) := hostOps1_other _ main_v0 (by decide)
    _ = W1 m ρ c (Proc.devRef .tc main_v0) := W2_of_ne m ρ c main_v0 (by decide)
    _ = shapeCast S1x128 (W0 m ρ c (Proc.devRef .tc main_arg3)) shapeCasts_S128_S1x128 := hostOps0_v0 _
    _ = shapeCast S1x128 (m ((c : Thread nD τ).loc main_arg3)) shapeCasts_S128_S1x128 := rfl

/-- At the third region's entry the adjacency is as launched: the second region reads it through an input window. -/
theorem V5_main_arg1 (c : Dev nD) : V5 m ρ c main_arg1 = m ((c : Thread nD τ).loc main_arg1) :=
  calc W5 m ρ c (Proc.devRef .tc main_arg1)
    _ = W4 m ρ c (Proc.devRef .tc main_arg1) := hostOps2_other _ main_arg1 (by decide)
    _ = W3 m ρ c (Proc.devRef .tc main_arg1) :=
        (W4_arr m ρ c 0).trans (((dat1 (V3 m ρ) c).arrAt_in 0 rfl _).trans (A_eq1 (V3 m ρ) c 0))
    _ = m ((c : Thread nD τ).loc main_arg1) := V3_main_arg1 m ρ c

/-- At the third region's entry `main_v5` holds the second region's output, converted to bf16. -/
theorem V5_main_v5 (c : Dev nD) :
    V5 m ρ c main_v5 = truncf .bf16 ((dat1 (V3 m ρ) c).arrAt 4 cfg1.N) bitsLt_bf16_f32 :=
  (hostOps2_v5 (W4 m ρ c)).trans (congrArg (fun a => truncf .bf16 a bitsLt_bf16_f32) (W4_arr m ρ c 4))

/-- At the third region's entry `main_v1` holds the second bias as a [1,128] array. -/
theorem V5_main_v1 (c : Dev nD) :
    V5 m ρ c main_v1 = shapeCast S1x128 (m ((c : Thread nD τ).loc main_arg5)) shapeCasts_S128_S1x128 :=
  calc W5 m ρ c (Proc.devRef .tc main_v1)
    _ = W4 m ρ c (Proc.devRef .tc main_v1) := hostOps2_other _ main_v1 (by decide)
    _ = W3 m ρ c (Proc.devRef .tc main_v1) := W4_of_ne m ρ c main_v1 (by decide)
    _ = W2 m ρ c (Proc.devRef .tc main_v1) := hostOps1_other _ main_v1 (by decide)
    _ = W1 m ρ c (Proc.devRef .tc main_v1) := W2_of_ne m ρ c main_v1 (by decide)
    _ = shapeCast S1x128 (W0 m ρ c (Proc.devRef .tc main_arg5)) shapeCasts_S128_S1x128 := hostOps0_v1 _
    _ = shapeCast S1x128 (m ((c : Thread nD τ).loc main_arg5)) shapeCasts_S128_S1x128 := rfl

/-- At the return `main_v6` holds what the third region's pipeline leaves in its output window's array. -/
theorem W6_main_v6 (c : Dev nD) :
    W6 m ρ c (Proc.devRef .tc main_v6) = (dat2 (V5 m ρ) c).arrAt 3 cfg2.N :=
  W6_arr m ρ c 3

end Cert.KernelIdeal.Hand

end
-- ==== Proof.Spec.lean ====
/-
  The mathematics of the claim, free of any program: a two-layer graph convolution with a dense adjacency matrix,
  followed by a row-wise log-softmax, over the extended reals.

  With node features `x` [10000,128], adjacency `adj` [10000,10000], weights `w1`, `w2` [128,128] and biases `b1`, `b2` [128]:
    support1 = x · w1,   hidden = max (adj · support1 + b1, 0),   support2 = hidden · w2,   logits = adj · support2 + b2,
  and each row `z` of the logits is sent to `z − logsumexp z`, the logsumexp taken after subtracting the row's maximum.
  The two programs differ only in how they write that last step: `z q − (lse + max)` against `(z q − max) − lse`,
  where `lse = log ∑ exp (z − max)`. On a row of real numbers the two agree (`lsm_eq`).
-/
import Idealize.ShloMosaic.PureOps.Ideal
import Idealize.ShloMosaic.Lib.ValueIdx

noncomputable section

open scoped BigOperators

namespace Cert.Gcn

open Idealize.ShloMosaic Idealize.ShloMosaic.ValueIdx

/-- Arrays as functions of their index, valued in the extended reals. -/
abbrev Feat := (⟨2, ![10000, 128]⟩ : Shape).Idx → EReal
abbrev Adj := (⟨2, ![10000, 10000]⟩ : Shape).Idx → EReal
abbrev Wt := (⟨2, ![128, 128]⟩ : Shape).Idx → EReal
abbrev Bias := (⟨1, ![128]⟩ : Shape).Idx → EReal
/-- A [10000,128] array by its two coordinates. -/
abbrev Tab := Fin 10000 → Fin 128 → EReal

/-- `x · w`: entry (p, q) is the sum over c of x(p,c) · w(c,q). -/
def support1 (x : Feat) (w : Wt) : Tab := fun p q => ∑ c : Fin 128, x (ix2 p c) * w (ix2 c q)

/-- `adj · s + b`: entry (p, q) is the sum over k of adj(p,k) · s(k,q), plus b(q). -/
def agg (adj : Adj) (s : Tab) (b : Bias) : Tab := fun p q => (∑ k : Fin 10000, adj (ix2 p k) * s k q) + b (ix1 q)

/-- The rectified aggregate `max (adj · s + b, 0)`. -/
def hidden (adj : Adj) (s : Tab) (b : Bias) : Tab := fun p j => max (agg adj s b p j) 0

/-- `h · w`: entry (p, q) is the sum over j of h(p,j) · w(j,q). -/
def support2 (h : Tab) (w : Wt) : Tab := fun p q => ∑ j : Fin 128, h p j * w (ix2 j q)

/-- The logits of the two-layer network. -/
def logits (x : Feat) (adj : Adj) (w1 : Wt) (b1 : Bias) (w2 : Wt) (b2 : Bias) : Tab :=
  agg adj (support2 (hidden adj (support1 x w1) b1) w2) b2

/-- A row's maximum, folded from −∞. -/
def rowMax (z : Fin 128 → EReal) : EReal := (Finset.univ : Finset (Fin 128)).fold max ⊥ z

/-- `log ∑ exp (z − max z)`. -/
def lse (z : Fin 128 → EReal) : EReal := Ideal.log (∑ q : Fin 128, Ideal.exp (z q - rowMax z))

/-- The log-softmax as the kernel writes it: `z q − (lse + max)`. -/
def lsmK (z : Fin 128 → EReal) (q : Fin 128) : EReal := z q - (lse z + rowMax z)

/-- The log-softmax as the reference writes it: `(z q − max) − lse`. -/
def lsmR (z : Fin 128 → EReal) (q : Fin 128) : EReal := (z q - rowMax z) - lse z

/-- The kernel's result, entry (p, q). -/
def outK (x : Feat) (adj : Adj) (w1 : Wt) (b1 : Bias) (w2 : Wt) (b2 : Bias) : Tab :=
  fun p q => lsmK (logits x adj w1 b1 w2 b2 p) q

/-- The reference's result, entry (p, q). -/
def outR (x : Feat) (adj : Adj) (w1 : Wt) (b1 : Bias) (w2 : Wt) (b2 : Bias) : Tab :=
  fun p q => lsmR (logits x adj w1 b1 w2 b2 p) q

end Cert.Gcn

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.KPayload.lean ====
/-
  The three kernel bodies' stored values, read at an entry, over the extended reals.

  Body 0 stores the product of its two whole operands.  Body 1, on a block of 400 adjacency rows, stores
  `max (rows · s + b, 0) · w`: entry (r, q) is the sum over j of `max (∑ k, rows(r,k) · s(k,j) + b(0,j), 0) · w(j,q)`.
  Body 2 stores the log-softmax of the rows `z r = rows · s + b`, written `z r q − (log ∑ exp (z r − max z r) + max z r)`.
  A change of float format is the identity on extended reals, a matrix product into a zero accumulator is the plain
  contraction, and a one-row (one-column) array broadcast down the rows (across the columns) reads its row (column).
-/
import proofs.«113815_g45810121179222_cont_sun_c4_534_2_alg».proof.Proof.Gen.KernelIdeal.Skeleton
import proofs.«113815_g45810121179222_cont_sun_c4_534_2_alg».proof.Proof.Spec
import proofs.«113815_g45810121179222_cont_sun_c4_534_2_alg».proof.Proof.LibPlainProduct
import proofs.«113815_g45810121179222_cont_sun_c4_534_2_alg».proof.Proof.LibRepeat
import proofs.«113815_g45810121179222_cont_sun_c4_534_2_alg».proof.Proof.LibColumn
import Idealize.ShloMosaic.PureOps.Ideal.Laws
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- Body 0's stored value at (p, q): the contraction of row p of the first operand with column q of the second. -/
theorem pay0_apply (x0 : Vec Ideal S10000x128 .f32) (x1 : Vec Ideal S128x128 .f32) (p : Fin 10000) (q : Fin 128) :
    k0_pay1 (F := Ideal) x0 x1 (ix2 p q) = ∑ c : Fin 128, x0 (ix2 p c) * x1 (ix2 c q) := by
  unfold k0_pay1
  exact Cert.PlainProduct.matmul_plain_apply _ rfl none _ _ p q

/-- The rows' aggregate `rows · s + b` at (r, j), as the bodies 1 and 2 compute it. -/
theorem aggBlock_apply (x0 : FVec Ideal S400x10000 .f32) (x1 : FVec Ideal S10000x128 .bf16) (x2 : FVec Ideal S1x128 .f32)
    (r : Fin 400) (j : Fin 128) :
    addf (matmul dot_S400x10000_S10000x128_S400x128_1_0_0_1_n_n none (truncf .bf16 x0 bitsLt_bf16_f32)
        (shapeCast S10000x128 x1 shapeCasts_S10000x128_S10000x128) (constant (F := Ideal) S400x128 .f32 0x00000000#32))
      (broadcastTo S400x128 (shapeCast S1x128 x2 shapeCasts_S1x128_S1x128) broadcasts_S1x128_S400x128) (ix2 r j)
      = (∑ k : Fin 10000, x0 (ix2 r k) * x1 (ix2 k j)) + x2 (ix2 (0 : Fin 1) j) := by
  rw [shapeCast_self, shapeCast_self]
  show _ + _ = _
  refine congrArg₂ (· + ·) ?_ ?_
  · exact Cert.PlainProduct.matmul_plain_apply _ rfl none _ _ r j
  · exact Cert.Lib.Repeat.rowRepeat_apply x2 _ r j

/-- Body 1's stored value at (r, q). -/
theorem pay1_apply (x0 : Vec Ideal S400x10000 .f32) (x1 : Vec Ideal S10000x128 .bf16) (x2 : Vec Ideal S1x128 .f32)
    (x3 : Vec Ideal S128x128 .f32) (r : Fin 400) (q : Fin 128) :
    k1_pay1 (F := Ideal) x0 x1 x2 x3 (ix2 r q)
      = ∑ j : Fin 128, max ((∑ k : Fin 10000, x0 (ix2 r k) * x1 (ix2 k j)) + x2 (ix2 (0 : Fin 1) j)) 0 * x3 (ix2 j q) := by
  unfold k1_pay1
  refine (Cert.PlainProduct.matmul_plain_apply _ rfl none _ _ r q).trans ?_
  refine Finset.sum_congr rfl fun j _ => ?_
  refine congrArg (· * x3 (ix2 j q)) ?_
  show max _ (Ideal.ofBits .f32 0x00000000#32) = _
  rw [Ideal.ofBits_zero_f32]
  exact congrArg (max · 0) (aggBlock_apply x0 x1 x2 r j)

/-- The single-precision pattern `0xFF800000` is −∞. -/
theorem ofBits_neg_inf : Ideal.ofBits .f32 0xFF800000#32 = (⊥ : EReal) := by
  simp [Ideal.ofBits, Ideal.ieee]

/-- The log-softmax tail of body 2 over a block `Z` of rows, at (r, q): the row's entry minus (log-sum-exp after the
    row's maximum is subtracted, plus that maximum). -/
theorem lsmBlock_apply (Z : FVec Ideal S400x128 .f32) (r : Fin 400) (q : Fin 128) :
    subf Z (broadcastTo S400x128 (addf (log (shapeCast S400x1 (multiReduction .add [1] S400 (exp (subf Z (broadcastTo S400x128
        (shapeCast S400x1 (multiReduction .maximumf [1] S400 Z 0xFF800000#32 reduces_S400x128_S400 (.inl rfl) rfl) shapeCasts_S400_S400x1)
        broadcasts_S400x1_S400x128))) 0x00000000#32 reduces_S400x128_S400 (.inl rfl) rfl) shapeCasts_S400_S400x1))
        (shapeCast S400x1 (multiReduction .maximumf [1] S400 Z 0xFF800000#32 reduces_S400x128_S400 (.inl rfl) rfl) shapeCasts_S400_S400x1))
        broadcasts_S400x1_S400x128) (ix2 r q)
      = Cert.Gcn.lsmK (fun j => Z (ix2 r j)) q := by
  have hlift : ∀ k : Fin 128, (reduces_S400x128_S400.lift (ix1 r) k : S400x128.Idx) = ix2 r k := fun k =>
    funext fun a => Fin.ext (by match a with | ⟨0, _⟩ => rfl | ⟨1, _⟩ => rfl)
  have hM : ∀ u : Fin 1, shapeCast S400x1 (multiReduction .maximumf [1] S400 Z 0xFF800000#32 reduces_S400x128_S400 (.inl rfl) rfl)
      shapeCasts_S400_S400x1 (ix2 r u) = Cert.Gcn.rowMax (fun j => Z (ix2 r j)) := by
    intro u
    refine (Cert.Lib.Column.shapeCast_a_a1_apply _ _ r u).trans ?_
    refine (Ideal.multiReduction_maximumf_single Z 0xFF800000#32 reduces_S400x128_S400 (.inl rfl) rfl (ix1 r)).trans ?_
    unfold Cert.Gcn.rowMax
    have hf : (Z ∘ reduces_S400x128_S400.lift (ix1 r)) = fun j : Fin 128 => Z (ix2 r j) := funext fun k => congrArg Z (hlift k)
    rw [hf]
    exact congrArg (fun b => Finset.fold max b (fun j : Fin 128 => Z (ix2 r j)) Finset.univ) ofBits_neg_inf
  unfold Cert.Gcn.lsmK Cert.Gcn.lse
  show Z (ix2 r q) - _ = Z (ix2 r q) - _
  congr 1
  refine (Cert.Lib.Repeat.colRepeat_apply _ _ r q).trans ?_
  show Ideal.log _ + _ = Ideal.log _ + _
  rw [hM 0]
  congr 2
  refine (Cert.Lib.Column.shapeCast_a_a1_apply _ _ r 0).trans ?_
  refine (Ideal.multiReduction_add_single _ 0x00000000#32 reduces_S400x128_S400 (.inl rfl) rfl (ix1 r)).trans ?_
  refine Finset.sum_congr rfl fun k _ => ?_
  rw [hlift k]
  exact congrArg (fun m => Ideal.exp (Z (ix2 r k) - m)) ((Cert.Lib.Repeat.colRepeat_apply _ _ r k).trans (hM 0))

/-- Body 2's stored value at (r, q): the log-softmax of row r of `rows · s + b`. -/
theorem pay2_apply (x0 : Vec Ideal S400x10000 .f32) (x1 : Vec Ideal S10000x128 .bf16) (x2 : Vec Ideal S1x128 .f32)
    (r : Fin 400) (q : Fin 128) :
    k2_pay1 (F := Ideal) x0 x1 x2 (ix2 r q)
      = Cert.Gcn.lsmK (fun j => (∑ k : Fin 10000, x0 (ix2 r k) * x1 (ix2 k j)) + x2 (ix2 (0 : Fin 1) j)) q := by
  unfold k2_pay1
  refine (lsmBlock_apply _ r q).trans ?_
  exact congrArg (fun z => Cert.Gcn.lsmK z q) (funext fun j => aggBlock_apply x0 x1 x2 r j)

/-- Body 1's stored value at (r, q), the operands' entries named: whatever the proof knows row r of the first operand,
    the second operand, the bias row and column q of the weight to be. -/
theorem pay1_apply_of (x0 : Vec Ideal S400x10000 .f32) (x1 : Vec Ideal S10000x128 .bf16) (x2 : Vec Ideal S1x128 .f32)
    (x3 : Vec Ideal S128x128 .f32) (r : Fin 400) (q : Fin 128)
    (A : Fin 10000 → EReal) (S : Fin 10000 → Fin 128 → EReal) (B : Fin 128 → EReal) (W : Fin 128 → EReal)
    (h0 : ∀ k, x0 (ix2 r k) = A k) (h1 : ∀ k j, x1 (ix2 k j) = S k j) (h2 : ∀ j, x2 (ix2 (0 : Fin 1) j) = B j)
    (h3 : ∀ j, x3 (ix2 j q) = W j) :
    k1_pay1 (F := Ideal) x0 x1 x2 x3 (ix2 r q) = ∑ j : Fin 128, max ((∑ k : Fin 10000, A k * S k j) + B j) 0 * W j := by
  rw [pay1_apply]
  refine Finset.sum_congr rfl fun j _ => ?_
  rw [h2 j, h3 j]
  refine congrArg (fun s => max (s + B j) 0 * W j) ?_
  exact Finset.sum_congr rfl fun k _ => by rw [h0 k, h1 k j]

/-- Body 2's stored value at (r, q), the operands' entries named. -/
theorem pay2_apply_of (x0 : Vec Ideal S400x10000 .f32) (x1 : Vec Ideal S10000x128 .bf16) (x2 : Vec Ideal S1x128 .f32)
    (r : Fin 400) (q : Fin 128)
    (A : Fin 10000 → EReal) (S : Fin 10000 → Fin 128 → EReal) (B : Fin 128 → EReal)
    (h0 : ∀ k, x0 (ix2 r k) = A k) (h1 : ∀ k j, x1 (ix2 k j) = S k j) (h2 : ∀ j, x2 (ix2 (0 : Fin 1) j) = B j) :
    k2_pay1 (F := Ideal) x0 x1 x2 (ix2 r q) = Cert.Gcn.lsmK (fun j => (∑ k : Fin 10000, A k * S k j) + B j) q := by
  rw [pay2_apply]
  refine congrArg (fun z => Cert.Gcn.lsmK z q) (funext fun j => ?_)
  rw [h2 j]
  refine congrArg (· + B j) ?_
  exact Finset.sum_congr rfl fun k _ => by rw [h0 k, h1 k j]

/-- Body 0's stored value at (p, q), the operands' entries named. -/
theorem pay0_apply_of (x0 : Vec Ideal S10000x128 .f32) (x1 : Vec Ideal S128x128 .f32) (p : Fin 10000) (q : Fin 128)
    (A : Fin 128 → EReal) (W : Fin 128 → EReal) (h0 : ∀ c, x0 (ix2 p c) = A c) (h1 : ∀ c, x1 (ix2 c q) = W c) :
    k0_pay1 (F := Ideal) x0 x1 (ix2 p q) = ∑ c : Fin 128, A c * W c := by
  rw [pay0_apply]
  exact Finset.sum_congr rfl fun c _ => by rw [h0 c, h1 c]

end Cert.KernelIdeal.Hand

end
-- ==== Proof.KRegion0.lean ====
/-
  The first region's result array, whatever the buffers hold when the region is entered.

  The region has no grid: its one point reads both whole operands and writes the whole result, the plain product:
  entry (p, q) is the sum over c of x(p,c) · w(c,q).
-/
import proofs.«113815_g45810121179222_cont_sun_c4_534_2_alg».proof.Proof.Gen.KernelIdeal.Frame
import proofs.«113815_g45810121179222_cont_sun_c4_534_2_alg».proof.Proof.KPayload
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Every window of the region sits at block (0, 0) at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first operand's block is the whole array. -/
theorem blk0_x (c : Dev nD) (t : Fin cfg0.N) (p : Fin 10000) (k : Fin 128) :
    (iblk0 V c 0 t : Vec Ideal S10000x128 .f32) (ix2 p k) = (V c main_arg0 : S10000x128.Idx → EReal) (ix2 p k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * p.val = p.val; rw [e0]; omega
  | ⟨1, _⟩ => show win0_0.index t 1 * 128 + 1 * k.val = k.val; rw [e1]; omega

/-- The second operand's block is the whole array. -/
theorem blk0_w (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- What the body stores at entry (p, q) is the product's entry. -/
theorem body0_entry (c : Dev nD) (t : Fin cfg0.N) (p : Fin 10000) (q : Fin 128) :
    k0_pay1 (F := Ideal) (iblk0 V c 0 t) (iblk0 V c 1 t) (ix2 p q)
      = Cert.Gcn.support1 (V c main_arg0) (V c main_arg2) p q :=
  pay0_apply_of _ _ p q _ _ (fun k => blk0_x V c t p k) (fun k => blk0_w V c t k q)

/-- The result array the region leaves. -/
abbrev result0 (c : Dev nD) : S10000x128.Idx → EReal :=
  fun i => Cert.Gcn.support1 (V c main_arg0) (V c main_arg2) (i 0) (i 1)

/-- What the one point writes back is the whole result array. -/
theorem flushed0_eq (c : Dev nD) (t : Fin cfg0.N) :
    (dat0 V c).flushed 2 t = ((cfg0.win 2).blk t).view.read (Elt Ideal) (result0 V c) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x128) hz0]
  obtain ⟨-, -, -, -, e0, e1⟩ := idx0 t
  funext y
  obtain ⟨p, q, rfl⟩ : ∃ (p : Fin 10000) (q : Fin 128), y = ix2 p q := ⟨y 0, y 1, eq_ix2 y⟩
  have hp : (((cfg0.win 2).blk t).view.emb (ix2 p q) 0 : Fin 10000) = p := Fin.ext (by
    show win0_2.index t 0 * 10000 + 1 * p.val = p.val; rw [e0]; omega)
  have hq : (((cfg0.win 2).blk t).view.emb (ix2 p q) 1 : Fin 128) = q := Fin.ext (by
    show win0_2.index t 1 * 128 + 1 * q.val = q.val; rw [e1]; omega)
  show k0_pay1 (F := Ideal) (iblk0 V c 0 t) (iblk0 V c 1 t) (ix2 p q)
    = Cert.Gcn.support1 (V c main_arg0) (V c main_arg2) (((cfg0.win 2).blk t).view.emb (ix2 p q) 0)
        (((cfg0.win 2).blk t).view.emb (ix2 p q) 1)
  rw [hp, hq]
  exact body0_entry V c t p q

/-- Every entry of the result array is in the one point's block. -/
theorem cover0 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨-, -, -, -, e0, e1⟩ := idx0 t0_0
  refine ⟨t0_0, flush0_2 _, ?_⟩
  show i ∈ ((View.whole main_v2).slice (win0_2.rect t0_0)).set
  rw [View.set_slice_whole, Rect.mem_set_unit]
  intro a
  match a with
  | ⟨0, _⟩ =>
    show win0_2.index t0_0 0 * 10000 ≤ (i 0).val ∧ (i 0).val < win0_2.index t0_0 0 * 10000 + 10000
    rw [e0]; omega
  | ⟨1, _⟩ =>
    show win0_2.index t0_0 1 * 128 ≤ (i 1).val ∧ (i 1).val < win0_2.index t0_0 1 * 128 + 128
    rw [e1]; omega

/-- THE FIRST REGION'S RESULT: the array ends holding the product of the two operands the region found. -/
theorem region0_value (c : Dev nD) : (dat0 V c).arrAt 2 cfg0.N = result0 V c :=
  (dat0 V c).arrAt_eq_of_cover 2 (result0 V c) (fun t _ => flushed0_eq V c t) cover0

end Cert.KernelIdeal.Hand

end
-- ==== Proof.KRegion1.lean ====
/-
  The layer-1 region's result array, whatever the buffers hold when the region is entered.

  The region runs over 25 points; at point t it reads rows 400·t … 400·t + 399 of the adjacency array, the whole
  support array, the one-row bias and the whole weight array, and writes rows 400·t … 400·t + 399 of its result.  So
  every entry (p, q) of the result is written exactly by the point p / 400, and holds
      ∑ j, max (∑ k, adj(p,k) · s(k,j) + b(0,j), 0) · w(j,q).
-/
import proofs.«113815_g45810121179222_cont_sun_c4_534_2_alg».proof.Proof.Gen.KernelIdeal.Frame
import proofs.«113815_g45810121179222_cont_sun_c4_534_2_alg».proof.Proof.KPayload
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Entry (p, q) of the layer-1 result as a function of the four arrays the region reads. -/
def layer1 (adj : S10000x10000.Idx → EReal) (s : S10000x128.Idx → EReal) (b : S1x128.Idx → EReal) (w : S128x128.Idx → EReal)
    (p : Fin 10000) (q : Fin 128) : EReal :=
  ∑ j : Fin 128, max ((∑ k : Fin 10000, adj (ix2 p k) * s (ix2 k j)) + b (ix2 (0 : Fin 1) j)) 0 * w (ix2 j q)

/-- The block indices of the five windows at a point: the adjacency rows and the result rows move with the point,
    the other three windows stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point t is rows 400·t … of the array. -/
theorem blk1_adj (c : Dev nD) (t : Fin cfg1.N) (r : Fin 400) (k : Fin 10000) (p : Fin 10000) (hp : p.val = t.val * 400 + r.val) :
    (iblk1 V c 0 t : Vec Ideal S400x10000 .f32) (ix2 r k) = (V c main_arg1 : S10000x10000.Idx → EReal) (ix2 p k) := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 400 + 1 * r.val = p.val; rw [e0, hp]; omega
  | ⟨1, _⟩ => show win1_0.index t 1 * 10000 + 1 * k.val = k.val; rw [e1]; omega

/-- The support block at every point is the whole array. -/
theorem blk1_sup (c : Dev nD) (t : Fin cfg1.N) (k : Fin 10000) (j : Fin 128) :
    (iblk1 V c 1 t : Vec Ideal S10000x128 .bf16) (ix2 k j) = (V c main_v3 : S10000x128.Idx → EReal) (ix2 k j) := by
  obtain ⟨-, -, e0, e1, -⟩ := idx1 t
  unfold iblk1
  rw [View.read_apply]
  show V c main_v3 _ = V c main_v3 _
  congr 1
  funext a
  apply Fin.ext
  match a with
  | ⟨0, _⟩ => show win1_1.index t 0 * 10000 + 1 * k.val = k.val; rw [e0]; omega
  | ⟨1, _⟩ => show win1_1.index t 1 * 128 + 1 * j.val = j.val; rw [e1]; omega

/-- The bias block at every point is the whole one-row array. -/
theorem blk1_bias (c : Dev nD) (t : Fin cfg1.N) (j : Fin 128) :
    (iblk1 V c 2 t : Vec Ideal S1x128 .f32) (ix2 (0 : Fin 1) j) = (V c main_v0 : S1x128.Idx → EReal) (ix2 (0 : Fin 1) j) := by
  obtain ⟨-, -, -, -, e0, e1, -⟩ := idx1 t
  unfold iblk1
  rw [View.read_apply]
  show V c main_v0 _ = V c main_v0 _
  congr 1
  funext a
  apply Fin.ext
  match a with
  | ⟨0, _⟩ => show win1_2.index t 0 * 1 + 1 * 0 = 0; rw [e0]
  | ⟨1, _⟩ => show win1_2.index t 1 * 128 + 1 * j.val = j.val; rw [e1]; omega

/-- The weight block at every point is the whole array. -/
theorem blk1_wt (c : Dev nD) (t : Fin cfg1.N) (j : Fin 128) (q : Fin 128) :
    (iblk1 V c 3 t : Vec Ideal S128x128 .f32) (ix2 j q) = (V c main_arg4 : S128x128.Idx → EReal) (ix2 j q) := by
  obtain ⟨-, -, -, -, -, -, e0, e1, -⟩ := idx1 t
  unfold iblk1
  rw [View.read_apply]
  show V c main_arg4 _ = V c main_arg4 _
  congr 1
  funext a
  apply Fin.ext
  match a with
  | ⟨0, _⟩ => show win1_3.index t 0 * 128 + 1 * j.val = j.val; rw [e0]; omega
  | ⟨1, _⟩ => show win1_3.index t 1 * 128 + 1 * q.val = q.val; rw [e1]; omega

/-- What the body stores at point t, entry (r, q), is entry (400·t + r, q) of `layer1`. -/
theorem body1_entry (c : Dev nD) (t : Fin cfg1.N) (r : Fin 400) (q : Fin 128) (p : Fin 10000) (hp : p.val = t.val * 400 + r.val) :
    k1_pay1 (F := Ideal) (iblk1 V c 0 t) (iblk1 V c 1 t) (iblk1 V c 2 t) (iblk1 V c 3 t) (ix2 r q)
      = layer1 (V c main_arg1) (V c main_v3) (V c main_v0) (V c main_arg4) p q :=
  pay1_apply_of _ _ _ _ r q _ _ _ _ (fun k => blk1_adj V c t r k p hp) (fun k j => blk1_sup V c t k j)
    (fun j => blk1_bias V c t j) (fun j => blk1_wt V c t j q)

/-- The result array the region leaves. -/
abbrev result1 (c : Dev nD) : S10000x128.Idx → EReal :=
  fun i => layer1 (V c main_arg1) (V c main_v3) (V c main_v0) (V c main_arg4) (i 0) (i 1)

/-- What point t writes back is block t of the result array. -/
theorem flushed1_eq (c : Dev nD) (t : Fin cfg1.N) :
    (dat1 V c).flushed 4 t = ((cfg1.win 4).blk t).view.read (Elt Ideal) (result1 V c) := by
  show (cfg1.win 4).cut (grid1.coords t) ((dat1 V c).after 4 t) = _
  rw [after1_4]
  unfold out1_4
  rw [View.canon_unit_zero hz1]
  simp only [View.ld_unit_zero (S := S400x10000) hz1, View.ld_unit_zero (S := S10000x128) hz1,
    View.ld_unit_zero (S := S1x128) hz1, View.ld_unit_zero (S := S128x128) hz1]
  obtain ⟨-, -, -, -, -, -, -, -, e0, e1⟩ := idx1 t
  funext y
  obtain ⟨r, q, rfl⟩ : ∃ (r : Fin 400) (q : Fin 128), y = ix2 r q := ⟨y 0, y 1, eq_ix2 y⟩
  have hq : (((cfg1.win 4).blk t).view.emb (ix2 r q) 1 : Fin 128) = q := Fin.ext (by
    show win1_4.index t 1 * 128 + 1 * q.val = q.val; rw [e1]; omega)
  show k1_pay1 (F := Ideal) (iblk1 V c 0 t) (iblk1 V c 1 t) (iblk1 V c 2 t) (iblk1 V c 3 t) (ix2 r q)
    = layer1 (V c main_arg1) (V c main_v3) (V c main_v0) (V c main_arg4) (((cfg1.win 4).blk t).view.emb (ix2 r q) 0)
        (((cfg1.win 4).blk t).view.emb (ix2 r q) 1)
  rw [hq]
  exact body1_entry V c t r q _ (by show win1_4.index t 0 * 400 + 1 * r.val = _; rw [e0]; omega)

/-- Every entry of the result array is in the block of the point its row falls in. -/
theorem cover1 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 25 := N_1
  have ht : (i 0).val / 400 < cfg1.N := by rw [hN]; omega
  obtain ⟨-, -, -, -, -, -, -, -, e0, e1⟩ := idx1 ⟨(i 0).val / 400, ht⟩
  refine ⟨⟨(i 0).val / 400, ht⟩, flush1_4 _, ?_⟩
  show i ∈ ((View.whole main_v4).slice (win1_4.rect ⟨(i 0).val / 400, ht⟩)).set
  rw [View.set_slice_whole, Rect.mem_set_unit]
  intro a
  match a with
  | ⟨0, _⟩ =>
    show win1_4.index ⟨(i 0).val / 400, ht⟩ 0 * 400 ≤ (i 0).val ∧ (i 0).val < win1_4.index ⟨(i 0).val / 400, ht⟩ 0 * 400 + 400
    rw [e0]; show (i 0).val / 400 * 400 ≤ (i 0).val ∧ (i 0).val < (i 0).val / 400 * 400 + 400; omega
  | ⟨1, _⟩ =>
    show win1_4.index ⟨(i 0).val / 400, ht⟩ 1 * 128 ≤ (i 1).val ∧ (i 1).val < win1_4.index ⟨(i 0).val / 400, ht⟩ 1 * 128 + 128
    rw [e1]; omega

/-- THE LAYER-1 REGION'S RESULT: the array ends holding `layer1` of the arrays the region found. -/
theorem region1_value (c : Dev nD) : (dat1 V c).arrAt 4 cfg1.N = result1 V c :=
  (dat1 V c).arrAt_eq_of_cover 4 (result1 V c) (fun t _ => flushed1_eq V c t) cover1

end Cert.KernelIdeal.Hand

end
-- ==== Proof.KRegion2.lean ====
/-
  The layer-2 region's result array, whatever the buffers hold when the region is entered.

  The region runs over 25 points; at point t it reads rows 400·t … 400·t + 399 of the adjacency array, the whole
  support array and the one-row bias, and writes rows 400·t … 400·t + 399 of its result: the log-softmax of each row
  `z p = adj(p,·) · s + b`, written `z p q − (log ∑ exp (z p − max z p) + max z p)`.
-/
import proofs.«113815_g45810121179222_cont_sun_c4_534_2_alg».proof.Proof.Gen.KernelIdeal.Frame
import proofs.«113815_g45810121179222_cont_sun_c4_534_2_alg».proof.Proof.KPayload
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Entry (p, q) of the layer-2 result as a function of the three arrays the region reads. -/
def layer2 (adj : S10000x10000.Idx → EReal) (s : S10000x128.Idx → EReal) (b : S1x128.Idx → EReal)
    (p : Fin 10000) (q : Fin 128) : EReal :=
  Cert.Gcn.lsmK (fun j => (∑ k : Fin 10000, adj (ix2 p k) * s (ix2 k j)) + b (ix2 (0 : Fin 1) j)) q

/-- The block indices of the four windows at a point: the adjacency rows and the result rows move with the point,
    the other two windows stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The adjacency block at point t is rows 400·t … of the array. -/
theorem blk2_adj (c : Dev nD) (t : Fin cfg2.N) (r : Fin 400) (k : Fin 10000) (p : Fin 10000) (hp : p.val = t.val * 400 + r.val) :
    (iblk2 V c 0 t : Vec Ideal S400x10000 .f32) (ix2 r k) = (V c main_arg1 : S10000x10000.Idx → EReal) (ix2 p k) := by
  obtain ⟨e0, e1, -⟩ := idx2 t
  unfold iblk2
  rw [View.read_apply]
  show V c main_arg1 _ = V c main_arg1 _
  congr 1
  funext a
  apply Fin.ext
  match a with
  | ⟨0, _⟩ => show win2_0.index t 0 * 400 + 1 * r.val = p.val; rw [e0, hp]; omega
  | ⟨1, _⟩ => show win2_0.index t 1 * 10000 + 1 * k.val = k.val; rw [e1]; omega

/-- The support block at every point is the whole array. -/
theorem blk2_sup (c : Dev nD) (t : Fin cfg2.N) (k : Fin 10000) (j : Fin 128) :
    (iblk2 V c 1 t : Vec Ideal S10000x128 .bf16) (ix2 k j) = (V c main_v5 : S10000x128.Idx → EReal) (ix2 k j) := by
  obtain ⟨-, -, e0, e1, -⟩ := idx2 t
  unfold iblk2
  rw [View.read_apply]
  show V c main_v5 _ = V c main_v5 _
  congr 1
  funext a
  apply Fin.ext
  match a with
  | ⟨0, _⟩ => show win2_1.index t 0 * 10000 + 1 * k.val = k.val; rw [e0]; omega
  | ⟨1, _⟩ => show win2_1.index t 1 * 128 + 1 * j.val = j.val; rw [e1]; omega

/-- The bias block at every point is the whole one-row array. -/
theorem blk2_bias (c : Dev nD) (t : Fin cfg2.N) (j : Fin 128) :
    (iblk2 V c 2 t : Vec Ideal S1x128 .f32) (ix2 (0 : Fin 1) j) = (V c main_v1 : S1x128.Idx → EReal) (ix2 (0 : Fin 1) j) := by
  obtain ⟨-, -, -, -, e0, e1, -⟩ := idx2 t
  unfold iblk2
  rw [View.read_apply]
  show V c main_v1 _ = V c main_v1 _
  congr 1
  funext a
  apply Fin.ext
  match a with
  | ⟨0, _⟩ => show win2_2.index t 0 * 1 + 1 * 0 = 0; rw [e0]
  | ⟨1, _⟩ => show win2_2.index t 1 * 128 + 1 * j.val = j.val; rw [e1]; omega

/-- What the body stores at point t, entry (r, q), is entry (400·t + r, q) of `layer2`. -/
theorem body2_entry (c : Dev nD) (t : Fin cfg2.N) (r : Fin 400) (q : Fin 128) (p : Fin 10000) (hp : p.val = t.val * 400 + r.val) :
    k2_pay1 (F := Ideal) (iblk2 V c 0 t) (iblk2 V c 1 t) (iblk2 V c 2 t) (ix2 r q)
      = layer2 (V c main_arg1) (V c main_v5) (V c main_v1) p q :=
  pay2_apply_of _ _ _ r q _ _ _ (fun k => blk2_adj V c t r k p hp) (fun k j => blk2_sup V c t k j)
    (fun j => blk2_bias V c t j)

/-- The result array the region leaves. -/
abbrev result2 (c : Dev nD) : S10000x128.Idx → EReal :=
  fun i => layer2 (V c main_arg1) (V c main_v5) (V c main_v1) (i 0) (i 1)

/-- What point t writes back is block t of the result array. -/
theorem flushed2_eq (c : Dev nD) (t : Fin cfg2.N) :
    (dat2 V c).flushed 3 t = ((cfg2.win 3).blk t).view.read (Elt Ideal) (result2 V c) := by
  show (cfg2.win 3).cut (grid2.coords t) ((dat2 V c).after 3 t) = _
  rw [after2_3]
  unfold out2_3
  rw [View.canon_unit_zero hz2]
  simp only [View.ld_unit_zero (S := S400x10000) hz2, View.ld_unit_zero (S := S10000x128) hz2,
    View.ld_unit_zero (S := S1x128) hz2]
  obtain ⟨-, -, -, -, -, -, e0, e1⟩ := idx2 t
  funext y
  obtain ⟨r, q, rfl⟩ : ∃ (r : Fin 400) (q : Fin 128), y = ix2 r q := ⟨y 0, y 1, eq_ix2 y⟩
  have hq : (((cfg2.win 3).blk t).view.emb (ix2 r q) 1 : Fin 128) = q := Fin.ext (by
    show win2_3.index t 1 * 128 + 1 * q.val = q.val; rw [e1]; omega)
  show k2_pay1 (F := Ideal) (iblk2 V c 0 t) (iblk2 V c 1 t) (iblk2 V c 2 t) (ix2 r q)
    = layer2 (V c main_arg1) (V c main_v5) (V c main_v1) (((cfg2.win 3).blk t).view.emb (ix2 r q) 0)
        (((cfg2.win 3).blk t).view.emb (ix2 r q) 1)
  rw [hq]
  exact body2_entry V c t r q _ (by show win2_3.index t 0 * 400 + 1 * r.val = _; rw [e0]; omega)

/-- Every entry of the result array is in the block of the point its row falls in. -/
theorem cover2 (i : S10000x128.Idx) :
    ∃ t : Fin cfg2.N, (cfg2.win 3).flush t = true ∧ i ∈ ((cfg2.win 3).blk t).view.set := by
  have hi0 : (i 0).val < 10000 := (i 0).isLt
  have hi1 : (i 1).val < 128 := (i 1).isLt
  have hN : cfg2.N = 25 := N_2
  have ht : (i 0).val / 400 < cfg2.N := by rw [hN]; omega
  obtain ⟨-, -, -, -, -, -, e0, e1⟩ := idx2 ⟨(i 0).val / 400, ht⟩
  refine ⟨⟨(i 0).val / 400, ht⟩, flush2_3 _, ?_⟩
  show i ∈ ((View.whole main_v6).slice (win2_3.rect ⟨(i 0).val / 400, ht⟩)).set
  rw [View.set_slice_whole, Rect.mem_set_unit]
  intro a
  match a with
  | ⟨0, _⟩ =>
    show win2_3.index ⟨(i 0).val / 400, ht⟩ 0 * 400 ≤ (i 0).val ∧ (i 0).val < win2_3.index ⟨(i 0).val / 400, ht⟩ 0 * 400 + 400
    rw [e0]; show (i 0).val / 400 * 400 ≤ (i 0).val ∧ (i 0).val < (i 0).val / 400 * 400 + 400; omega
  | ⟨1, _⟩ =>
    show win2_3.index ⟨(i 0).val / 400, ht⟩ 1 * 128 ≤ (i 1).val ∧ (i 1).val < win2_3.index ⟨(i 0).val / 400, ht⟩ 1 * 128 + 128
    rw [e1]; omega

/-- THE LAYER-2 REGION'S RESULT: the array ends holding `layer2` of the arrays the region found. -/
theorem region2_value (c : Dev nD) : (dat2 V c).arrAt 3 cfg2.N = result2 V c :=
  (dat2 V c).arrAt_eq_of_cover 3 (result2 V c) (fun t _ => flushed2_eq V c t) cover2

end Cert.KernelIdeal.Hand

end
-- ==== Proof.KValue.lean ====
/-
  The kernel program's result as one function of its six argument arrays.

  The three regions compose: the first leaves `x · w1`; the second, reading that array (a change of float format
  between them is the identity on extended reals) and the bias as a one-row array, leaves
  `max (adj · (x · w1) + b1, 0) · w2`; the third, reading that, leaves the log-softmax of the rows of
  `adj · (max (adj · (x · w1) + b1, 0) · w2) + b2`.  Entry by entry this is the specification's `outK`.
-/
import proofs.«113815_g45810121179222_cont_sun_c4_534_2_alg».proof.Proof.KFrame
import proofs.«113815_g45810121179222_cont_sun_c4_534_2_alg».proof.Proof.KBoundary
import proofs.«113815_g45810121179222_cont_sun_c4_534_2_alg».proof.Proof.KRegion0
import proofs.«113815_g45810121179222_cont_sun_c4_534_2_alg».proof.Proof.KRegion1
import proofs.«113815_g45810121179222_cont_sun_c4_534_2_alg».proof.Proof.KRegion2
import proofs.«113815_g45810121179222_cont_sun_c4_534_2_alg».proof.Proof.Spec
import Idealize.ShloMosaic.Lib.ValueLayout

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

/-- The second region's entry, when its support operand is the first region's product and its bias the one-row cast
    of the bias vector, is the specification's second support. -/
theorem layer1_eq (adj : S10000x10000.Idx → EReal) (x : S10000x128.Idx → EReal) (w1 : S128x128.Idx → EReal)
    (b1 : S128.Idx → EReal) (w2 : S128x128.Idx → EReal) (p : Fin 10000) (q : Fin 128) :
    layer1 adj (truncf (F := Ideal) .bf16 (fun i : S10000x128.Idx => Cert.Gcn.support1 x w1 (i 0) (i 1)) bitsLt_bf16_f32)
        (shapeCast S1x128 b1 shapeCasts_S128_S1x128) w2 p q
      = Cert.Gcn.support2 (Cert.Gcn.hidden adj (Cert.Gcn.support1 x w1) b1) w2 p q := by
  unfold layer1 Cert.Gcn.support2 Cert.Gcn.hidden Cert.Gcn.agg
  refine Finset.sum_congr rfl fun j _ => ?_
  rw [shapeCast_a_1a_apply b1 shapeCasts_S128_S1x128 (0 : Fin 1) j]
  rfl

/-- The third region's entry, when its support operand is the second support and its bias the one-row cast of the
    second bias vector, is the specification's result. -/
theorem layer2_eq (adj : S10000x10000.Idx → EReal) (s : Cert.Gcn.Tab) (b2 : S128.Idx → EReal) (p : Fin 10000) (q : Fin 128) :
    layer2 adj (truncf (F := Ideal) .bf16 (fun i : S10000x128.Idx => s (i 0) (i 1)) bitsLt_bf16_f32)
        (shapeCast S1x128 b2 shapeCasts_S128_S1x128) p q
      = Cert.Gcn.lsmK (Cert.Gcn.agg adj s b2 p) q := by
  unfold layer2 Cert.Gcn.agg
  refine congrArg (fun z => Cert.Gcn.lsmK z q) (funext fun j => ?_)
  rw [shapeCast_a_1a_apply b2 shapeCasts_S128_S1x128 (0 : Fin 1) j]
  rfl

variable (m : (ℓ : Loc nD τ sig) → Buf (Elt Ideal) ℓ) (ρ : Dev nD → PrngReg)

/-- The result buffer after the run, entry by entry, is the specification's `outK` of the six argument arrays. -/
theorem result_eq (c : Dev nD) :
    W6 m ρ c (Proc.devRef .tc main_v6)
      = (fun i : S10000x128.Idx => Cert.Gcn.outK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (i 0) (i 1)) := by
  rw [W6_main_v6 m ρ c, region2_value (V5 m ρ) c]
  unfold result2
  rw [V5_main_arg1 m ρ c, V5_main_v5 m ρ c, V5_main_v1 m ρ c, region1_value (V3 m ρ) c]
  unfold result1
  rw [V3_main_arg1 m ρ c, V3_main_v3 m ρ c, V3_main_v0 m ρ c, V3_main_arg4 m ρ c, region0_value (V1 m ρ) c]
  unfold result0
  rw [V1_main_arg0 m ρ c, V1_main_arg2 m ρ c]
  funext i
  unfold Cert.Gcn.outK Cert.Gcn.logits
  have e1 : (fun i : S10000x128.Idx => layer1 (m ((c : Thread nD τ).loc main_arg1))
        (truncf (F := Ideal) .bf16 (fun i : S10000x128.Idx => Cert.Gcn.support1 (m ((c : Thread nD τ).loc main_arg0)) (m ((c : Thread nD τ).loc main_arg2)) (i 0) (i 1)) bitsLt_bf16_f32)
        (shapeCast S1x128 (m ((c : Thread nD τ).loc main_arg3)) shapeCasts_S128_S1x128) (m ((c : Thread nD τ).loc main_arg4)) (i 0) (i 1))
      = fun i : S10000x128.Idx => Cert.Gcn.support2 (Cert.Gcn.hidden (m ((c : Thread nD τ).loc main_arg1))
          (Cert.Gcn.support1 (m ((c : Thread nD τ).loc main_arg0)) (m ((c : Thread nD τ).loc main_arg2))) (m ((c : Thread nD τ).loc main_arg3)))
          (m ((c : Thread nD τ).loc main_arg4)) (i 0) (i 1) :=
    funext fun i => layer1_eq _ _ _ _ _ (i 0) (i 1)
  rw [e1]
  exact layer2_eq _ _ _ (i 0) (i 1)

/-- The kernel program's run, read: it terminates with the result buffer at `outK` of the argument arrays, which it
    leaves unchanged. -/
theorem run : θ_run defs (onTc (τ := τ) (main (F := Ideal))) ⟨m, fun _ => 0, ρ⟩ (fun r => ∀ c : Dev nD,
      r.2.mem ((c.tc : Thread nD τ).loc main_v6)
        = (fun i : S10000x128.Idx => Cert.Gcn.outK (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.GenP.frame_result m ρ)

end Cert.KernelIdeal.Hand

end
-- ==== Proof.RefSpec.lean ====
/-
  The reference program computes the specification's `outR`.

  The reference is a two-layer graph convolution followed by jax's row-wise log-softmax, 28 host operations in all.
  Read at an entry (p, q) of its [10000,128] result, at the extended reals:
    · the first thirteen operations give the logits: two matrix products are the sums `∑ c, x(p,c) · w1(c,q)` and
      `∑ k, adj(p,k) · s(k,q)`, a bias broadcast over the rows is `b(q)`, the maximum with the float zero is the
      maximum with `0`; likewise the second layer (`v10_eq`);
    · the maximum-reduction over axis 1 from the float `-∞` is the fold of `max` from `⊥` over the row of logits
      (`call1_v0_eq`: a reduction over one axis is a fold over that axis's coordinates, and the bit pattern
      `0xFF800000` denotes `⊥`), and the further maximum with a splat of `-∞` changes nothing (`max ⊥ m = m`);
    · the sum-reduction from the float zero of the exponentials of the shifted logits is `∑ q, exp (z q − max z)`,
      its logarithm is `lse z`, and the last subtraction gives `(z q − max z) − lse z`, which is `lsmR z q`.
  Hence the last value of the reference is `outR` of its six arguments, entry by entry (`val_main_v11_ix2`,
  `val_main_v11_eq_outR`), and every run of the reference ends with its result buffer holding `outR` of the
  arguments' launch contents, the arguments unchanged (`run`).
-/
import proofs.«113815_g45810121179222_cont_sun_c4_534_2_alg».proof.Proof.Spec
import proofs.«113815_g45810121179222_cont_sun_c4_534_2_alg».proof.Proof.RefRead
import proofs.«113815_g45810121179222_cont_sun_c4_534_2_alg».proof.Proof.RefRun
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

section Value

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))

/-- `x · w1` read at (p, q). -/
theorem v0_eq (p : Fin 10000) (q : Fin 128) :
    val_main_v0 (F := Ideal) x0 x2 (ix2 p q) = Cert.Gcn.support1 x0 x2 p q := by
  rw [val_main_v0_apply]
  unfold Cert.Gcn.support1
  refine Finset.sum_congr rfl fun k _ => ?_
  congr 2 <;> exact funext fun a => (by match a with | ⟨0, _⟩ => rfl | ⟨1, _⟩ => rfl)

/-- The first bias, broadcast over the rows, read at (p, q). -/
theorem v3_eq (p : Fin 10000) (q : Fin 128) :
    val_main_v3 (F := Ideal) x3 (ix2 p q) = x3 (ix1 q) := by
  rw [val_main_v3_apply, val_main_v2_apply]
  exact congrArg x3 (funext fun a => (by match a with | ⟨0, _⟩ => rfl))

/-- `adj · (x · w1) + b1` read at (p, q). -/
theorem v4_eq (p : Fin 10000) (q : Fin 128) :
    val_main_v4 (F := Ideal) x0 x1 x2 x3 (ix2 p q) = Cert.Gcn.agg x1 (Cert.Gcn.support1 x0 x2) x3 p q := by
  rw [val_main_v4_apply, val_main_v1_apply, v3_eq]
  unfold Cert.Gcn.agg
  show (∑ k : Fin 10000, _) + _ = _
  refine congrArg (· + x3 (ix1 q)) (Finset.sum_congr rfl fun k _ => ?_)
  rw [← v0_eq]
  congr 2 <;> exact funext fun a => (by match a with | ⟨0, _⟩ => rfl | ⟨1, _⟩ => rfl)

/-- The rectified aggregate read at (p, q): the maximum with the float zero is the maximum with `0`. -/
theorem v5_eq (p : Fin 10000) (q : Fin 128) :
    val_main_v5 (F := Ideal) x0 x1 x2 x3 (ix2 p q) = Cert.Gcn.hidden x1 (Cert.Gcn.support1 x0 x2) x3 p q := by
  rw [val_main_v5_apply, v4_eq, val_main_call0_v0_apply, val_main_call0_cst_apply]
  show max _ (Ideal.ofBits .f32 0x00000000#32) = _
  rw [Ideal.ofBits_zero_f32]
  rfl

/-- `hidden · w2` read at (p, q). -/
theorem v6_eq (p : Fin 10000) (q : Fin 128) :
    val_main_v6 (F := Ideal) x0 x1 x2 x3 x4 (ix2 p q)
      = Cert.Gcn.support2 (Cert.Gcn.hidden x1 (Cert.Gcn.support1 x0 x2) x3) x4 p q := by
  rw [val_main_v6_apply]
  unfold Cert.Gcn.support2
  refine Finset.sum_congr rfl fun k _ => ?_
  rw [← v5_eq]
  congr 2 <;> exact funext fun a => (by match a with | ⟨0, _⟩ => rfl | ⟨1, _⟩ => rfl)

/-- The second bias, broadcast over the rows, read at (p, q). -/
theorem v9_eq (p : Fin 10000) (q : Fin 128) :
    val_main_v9 (F := Ideal) x5 (ix2 p q) = x5 (ix1 q) := by
  rw [val_main_v9_apply, val_main_v8_apply]
  exact congrArg x5 (funext fun a => (by match a with | ⟨0, _⟩ => rfl))

/-- The thirteenth operation's value is the logits, entry by entry. -/
theorem v10_eq (p : Fin 10000) (q : Fin 128) :
    val_main_v10 (F := Ideal) x0 x1 x2 x3 x4 x5 (ix2 p q) = Cert.Gcn.logits x0 x1 x2 x3 x4 x5 p q := by
  rw [val_main_v10_apply, val_main_v7_apply, v9_eq]
  unfold Cert.Gcn.logits Cert.Gcn.agg
  show (∑ k : Fin 10000, _) + _ = _
  refine congrArg (· + x5 (ix1 q)) (Finset.sum_congr rfl fun k _ => ?_)
  rw [← v6_eq]
  congr 2 <;> exact funext fun a => (by match a with | ⟨0, _⟩ => rfl | ⟨1, _⟩ => rfl)

/-- The bit pattern of the float `-∞` denotes the bottom of the extended reals. -/
theorem ofBits_neg_inf_f32 : Ideal.ofBits .f32 0xFF800000#32 = (⊥ : EReal) := by
  simp [Ideal.ofBits, Ideal.ieee]

/-- The reduction's shape fact in the form that names the inserted index. -/
theorem reduces_d1 : S10000x128.Reduces [1] S10000 := by decide

/-- The row-wise maximum from `-∞`: the fold of `max` from `⊥` over the row of logits. -/
theorem call1_v0_eq (p : Fin 10000) :
    val_main_call1_v0 (F := Ideal) x0 x1 x2 x3 x4 x5 (ix1 p) = Cert.Gcn.rowMax (Cert.Gcn.logits x0 x1 x2 x3 x4 x5 p) := by
  unfold val_main_call1_v0
  rw [Host.reduce_eq_fold_single FloatOps.maximumf _ _ reducesTo_S10000x128_S10000_d1 reduces_d1 h_S_]
  unfold Cert.Gcn.rowMax
  rw [val_main_call1_cst_apply]
  show (Finset.univ : Finset (Fin 128)).fold max (Ideal.ofBits .f32 0xFF800000#32) _ = _
  rw [ofBits_neg_inf_f32]
  refine Finset.fold_congr fun k _ => ?_
  show val_main_v10 (F := Ideal) x0 x1 x2 x3 x4 x5 (reduces_d1.lift (ix1 p) k) = _
  rw [← v10_eq]
  exact congrArg _ (funext fun a => Fin.ext (by match a with | ⟨0, _⟩ => rfl | ⟨1, _⟩ => rfl))

/-- The maximum with the `-∞` splat changes nothing: the row's maximum again. -/
theorem call1_v2_eq (p : Fin 10000) :
    val_main_call1_v2 (F := Ideal) x0 x1 x2 x3 x4 x5 (ix1 p) = Cert.Gcn.rowMax (Cert.Gcn.logits x0 x1 x2 x3 x4 x5 p) := by
  rw [val_main_call1_v2_apply, call1_v0_eq, val_main_call1_v1_apply, val_main_call1_cst_0_apply]
  show max (Ideal.ofBits .f32 0xFF800000#32) _ = _
  rw [ofBits_neg_inf_f32]
  exact max_bot_left _

/-- The row's maximum broadcast back over the row, read at (p, q). -/
theorem call1_v4_eq (p : Fin 10000) (q : Fin 128) :
    val_main_call1_v4 (F := Ideal) x0 x1 x2 x3 x4 x5 (ix2 p q) = Cert.Gcn.rowMax (Cert.Gcn.logits x0 x1 x2 x3 x4 x5 p) := by
  rw [val_main_call1_v4_apply, val_main_call1_v3_apply, ← call1_v2_eq]
  exact congrArg _ (funext fun a => (by match a with | ⟨0, _⟩ => rfl))

/-- The shifted logits `z q − max z`. -/
theorem call1_v5_eq (p : Fin 10000) (q : Fin 128) :
    val_main_call1_v5 (F := Ideal) x0 x1 x2 x3 x4 x5 (ix2 p q)
      = Cert.Gcn.logits x0 x1 x2 x3 x4 x5 p q - Cert.Gcn.rowMax (Cert.Gcn.logits x0 x1 x2 x3 x4 x5 p) := by
  rw [val_main_call1_v5_apply, v10_eq, call1_v4_eq]
  rfl

/-- The sum of the exponentials of the shifted logits, from the float zero. -/
theorem call1_v7_eq (p : Fin 10000) :
    val_main_call1_v7 (F := Ideal) x0 x1 x2 x3 x4 x5 (ix1 p)
      = ∑ q : Fin 128, Ideal.exp (Cert.Gcn.logits x0 x1 x2 x3 x4 x5 p q - Cert.Gcn.rowMax (Cert.Gcn.logits x0 x1 x2 x3 x4 x5 p)) := by
  rw [val_main_call1_v7_apply, val_main_call1_cst_1_apply]
  show Ideal.ofBits .f32 0x00000000#32 + _ = _
  rw [Ideal.ofBits_zero_f32, zero_add]
  refine Finset.sum_congr rfl fun k _ => ?_
  rw [val_main_call1_v6_apply, ← call1_v5_eq]
  show Ideal.exp _ = _
  exact congrArg (fun i => Ideal.exp (val_main_call1_v5 (F := Ideal) x0 x1 x2 x3 x4 x5 i))
    (funext fun a => (by match a with | ⟨0, _⟩ => rfl | ⟨1, _⟩ => rfl))

/-- The logarithm of that sum, broadcast back over the row, read at (p, q). -/
theorem call1_v10_eq (p : Fin 10000) (q : Fin 128) :
    val_main_call1_v10 (F := Ideal) x0 x1 x2 x3 x4 x5 (ix2 p q) = Cert.Gcn.lse (Cert.Gcn.logits x0 x1 x2 x3 x4 x5 p) := by
  rw [val_main_call1_v10_apply, val_main_call1_v9_apply, val_main_call1_v8_apply]
  unfold Cert.Gcn.lse
  rw [← call1_v7_eq]
  show Ideal.log _ = _
  exact congrArg (fun i => Ideal.log (val_main_call1_v7 (F := Ideal) x0 x1 x2 x3 x4 x5 i))
    (funext fun a => (by match a with | ⟨0, _⟩ => rfl))

/-- The reference's last value is the specification's `outR`, entry by entry. -/
theorem val_main_v11_ix2 (p : Fin 10000) (q : Fin 128) :
    val_main_v11 (F := Ideal) x0 x1 x2 x3 x4 x5 (ix2 p q) = Cert.Gcn.outR x0 x1 x2 x3 x4 x5 p q := by
  rw [val_main_v11_apply, call1_v5_eq, call1_v10_eq]
  rfl

/-- The same as an equation of arrays. -/
theorem val_main_v11_eq_outR :
    val_main_v11 (F := Ideal) x0 x1 x2 x3 x4 x5 = fun i => Cert.Gcn.outR x0 x1 x2 x3 x4 x5 (i 0) (i 1) := by
  funext i
  obtain ⟨p, q, rfl⟩ : ∃ (p : Fin 10000) (q : Fin 128), i = ix2 p q := ⟨i 0, i 1, eq_ix2 i⟩
  exact val_main_v11_ix2 x0 x1 x2 x3 x4 x5 p q

end Value

/-- On every device, from any memory with zero counters: every weakly fair execution of the reference terminates
    with its result buffer holding `outR` of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11)
          = (fun i : S10000x128.Idx => Cert.Gcn.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1).trans (val_main_v11_eq_outR _ _ _ _ _ _), (h c).2⟩)
    (Cert.ReferenceIdeal.Value.run (F := Ideal) m ρ)

end Cert.ReferenceIdeal.Hand

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.Algebra.lean ====
/-
  The last law of the row-wise log-softmax, and the real-valuedness it rests on.

  On the extended reals `a − (L + m)` and `(a − m) − L` agree whenever `a` and `m` are real numbers, whatever the
  extended real `L` is: for a real `L` it is the identity of the reals, and at either infinity both sides are the
  opposite infinity. They do not agree in general when `a` or `m` is infinite. So the two ways of writing the
  log-softmax of a row `z` — `z q − (lse z + max z)` and `(z q − max z) − lse z` — agree on every row of real numbers:
  the maximum of a nonempty finite family of reals, folded from −∞, is real. And the logits of the two-layer network
  are real as soon as every input array is real-valued: they are built from sums, products and maxima of reals.
-/
import proofs.«113815_g45810121179222_cont_sun_c4_534_2_alg».proof.Proof.Spec
import proofs.«113815_g45810121179222_cont_sun_c4_534_2_alg».proof.Proof.LibFinite

noncomputable section

open scoped BigOperators

namespace Cert.Gcn

open Idealize.ShloMosaic Idealize.ShloMosaic.ValueIdx Cert.Finite

/-- The maximum of a row of reals, folded from −∞, is real: it is below +∞ because −∞ and every entry are, and it is
    above −∞ because it is at least the first entry. -/
theorem rowMax_isReal (z : Fin 128 → EReal) (hz : ∀ q, Cert.Finite.IsReal (z q)) :
    Cert.Finite.IsReal (rowMax z) := by
  unfold rowMax
  refine isReal_of_lt ?_ ?_
  · exact (Finset.lt_fold_max _).mpr
      (Or.inr ⟨0, Finset.mem_univ _, bot_lt_iff_ne_bot.mpr (hz 0).ne_bot⟩)
  · exact (Finset.fold_max_lt _).mpr
      ⟨bot_lt_top, fun q _ => lt_top_iff_ne_top.mpr (hz q).ne_top⟩

/-- For reals `a`, `m` and ANY extended real `L`: `a − (L + m) = (a − m) − L`. -/
theorem sub_add_eq_sub_sub_of_real (a m : ℝ) (L : EReal) :
    (a : EReal) - (L + (m : EReal)) = ((a : EReal) - (m : EReal)) - L := by
  induction L using EReal.rec with
  | bot =>
    rw [EReal.bot_add, ← EReal.coe_sub, EReal.coe_sub_bot, EReal.coe_sub_bot]
  | coe l =>
    rw [← EReal.coe_add, ← EReal.coe_sub, ← EReal.coe_sub, ← EReal.coe_sub]
    congr 1
    ring
  | top =>
    rw [EReal.top_add_coe, EReal.sub_top, EReal.sub_top]

/-- THE LAST LAW: on a row of reals the two ways of writing the log-softmax agree. -/
theorem lsm_eq (z : Fin 128 → EReal) (hz : ∀ q, Cert.Finite.IsReal (z q)) (q : Fin 128) :
    lsmK z q = lsmR z q := by
  obtain ⟨a, ha⟩ := hz q
  obtain ⟨m, hm⟩ := rowMax_isReal z hz
  unfold lsmK lsmR
  rw [ha, hm]
  exact sub_add_eq_sub_sub_of_real a m (lse z)

variable (x : Feat) (adj : Adj) (w1 : Wt) (b1 : Bias) (w2 : Wt) (b2 : Bias)

/-- A product of a real matrix with a real table, plus a real bias, is real. -/
theorem agg_isReal (adj : Adj) (s : Tab) (b : Bias) (hadj : ∀ i, Cert.Finite.IsReal (adj i))
    (hs : ∀ p q, Cert.Finite.IsReal (s p q)) (hb : ∀ i, Cert.Finite.IsReal (b i)) (p : Fin 10000) (q : Fin 128) :
    Cert.Finite.IsReal (agg adj s b p q) := by
  unfold agg
  exact (IsReal.sum_fin _ fun k => (hadj _).mul (hs k q)).add (hb _)

/-- The logits of the two-layer network are real when every input array is real-valued. -/
theorem logits_isReal
    (hx : ∀ i, Cert.Finite.IsReal (x i)) (hadj : ∀ i, Cert.Finite.IsReal (adj i))
    (hw1 : ∀ i, Cert.Finite.IsReal (w1 i)) (hb1 : ∀ i, Cert.Finite.IsReal (b1 i))
    (hw2 : ∀ i, Cert.Finite.IsReal (w2 i)) (hb2 : ∀ i, Cert.Finite.IsReal (b2 i))
    (p : Fin 10000) (q : Fin 128) :
    Cert.Finite.IsReal (logits x adj w1 b1 w2 b2 p q) := by
  have h1 : ∀ p q, Cert.Finite.IsReal (support1 x w1 p q) := fun p q => by
    unfold support1
    exact IsReal.sum_fin _ fun c => (hx _).mul (hw1 _)
  have hh : ∀ p q, Cert.Finite.IsReal (hidden adj (support1 x w1) b1 p q) := fun p q => by
    unfold hidden
    exact (agg_isReal adj _ b1 hadj h1 hb1 p q).max isReal_zero
  have h2 : ∀ p q, Cert.Finite.IsReal (support2 (hidden adj (support1 x w1) b1) w2 p q) := fun p q => by
    unfold support2
    exact IsReal.sum_fin _ fun j => (hh p j).mul (hw2 _)
  unfold logits
  exact agg_isReal adj _ b2 hadj h2 hb2 p q

/-- On real-valued inputs the kernel's result and the reference's result are the same table. -/
theorem out_eq
    (hx : ∀ i, Cert.Finite.IsReal (x i)) (hadj : ∀ i, Cert.Finite.IsReal (adj i))
    (hw1 : ∀ i, Cert.Finite.IsReal (w1 i)) (hb1 : ∀ i, Cert.Finite.IsReal (b1 i))
    (hw2 : ∀ i, Cert.Finite.IsReal (w2 i)) (hb2 : ∀ i, Cert.Finite.IsReal (b2 i)) :
    outK x adj w1 b1 w2 b2 = outR x adj w1 b1 w2 b2 := by
  funext p q
  unfold outK outR
  exact lsm_eq _ (fun q' => logits_isReal x adj w1 b1 w2 b2 hx hadj hw1 hb1 hw2 hb2 p q') q

end Cert.Gcn

end
-- ==== Proof.Finite.lean ====
/-
  The precondition decoded: every input array is real-valued.

  The precondition asks, of each of the six input arrays `a`, that `|a| < +∞` at every index — the absolute value
  compared with the single-precision pattern of +∞, the comparisons reduced by `and` over the whole array — and that the
  six answers, and-ed together, be 1. On the extended reals `|x|` is `max x (−x)` and the pattern `0x7F800000` is +∞:
  `max x (−x) < +∞` says `x < +∞` and `−x < +∞`, that is, `x` is neither infinity, a real number. A conjunction by
  `and` that is 1 has every conjunct 1, and a reduction by `and` over a whole array that is 1 met a 1 at every index.
-/
import proofs.«113815_g45810121179222_cont_sun_c4_534_2_alg».proof.Defs
import proofs.«113815_g45810121179222_cont_sun_c4_534_2_alg».proof.Proof.LibFinite
import Idealize.ShloMosaic.Lib.ReduceAll
import Idealize.ShloMosaic.Lib.ValueIdx

noncomputable section

namespace Cert.Proof.Finite

open Idealize.ShloMosaic Idealize.SL.Sem Cert.Finite
open Cert.Pre_finite_inputs (S10000x128 S10000x10000 S128x128 S128 S_)

/-- The scalar shape has one index. -/
instance : Subsingleton S_.Idx := ⟨fun a b => funext fun d => d.elim0⟩

/-- The single-precision pattern `0x7F800000` is +∞. -/
theorem ofBits_inf : Ideal.ofBits .f32 0x7F800000#32 = ⊤ := by simp [Ideal.ofBits, Ideal.ieee]

/-- One value: `|x| < +∞` makes `x` real. `max x (−x) < +∞` gives `x < +∞` and `−x < +∞`; the second rules out −∞. -/
theorem isReal_of_abs_lt_inf (x : Ideal .f32)
    (h : FloatOps.cmpf .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [ofBits_inf] at h
  unfold Ideal.cmp at h
  have hlt : max (x : EReal) (-(x : EReal)) < ⊤ := by
    by_contra hn
    simp [hn] at h
  rw [max_lt_iff] at hlt
  refine (isReal_iff x).mpr ⟨?_, ne_of_lt hlt.1⟩
  intro hb
  have h2 := hlt.2
  rw [hb, EReal.neg_bot] at h2
  exact lt_irrefl _ h2

/-- One array: `jnp.all(|a| < +∞)` being 1 makes every element of `a` real. -/
theorem isReal_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf a) (broadcastInDim s ![] hb (constant (F := Ideal) S_ .f32 0x7F800000#32)))
        (constantI S_ 1 1#1) hr hu j = 1#1) (i : s.Idx) : IsReal (a i) :=
  isReal_of_abs_lt_inf (a i) (Host.reduce_andi_all _ _ hr hu j e i)

/-- The printed precondition over six arrays: its one element being 1 makes all six arrays real-valued. -/
theorem real_of_fn [Cert.Pre_finite_inputs.Facts]
    (a0 : FVec Ideal S10000x128 .f32) (a1 : FVec Ideal S10000x10000 .f32) (a2 : FVec Ideal S128x128 .f32)
    (a3 : FVec Ideal S128 .f32) (a4 : FVec Ideal S128x128 .f32) (a5 : FVec Ideal S128 .f32)
    (e : Cert.Pre_finite_inputs.fn (F := Ideal) a0 a1 a2 a3 a4 a5 ValueIdx.ix0 = 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  dsimp only [Cert.Pre_finite_inputs.fn, Cert.Pre_finite_inputs.fn_part1, andi] at e
  obtain ⟨h01234, h5⟩ := IntOp.andi_eq_one.1 e
  obtain ⟨h0123, h4⟩ := IntOp.andi_eq_one.1 h01234
  obtain ⟨h012, h3⟩ := IntOp.andi_eq_one.1 h0123
  obtain ⟨h01, h2⟩ := IntOp.andi_eq_one.1 h012
  obtain ⟨h0, h1⟩ := IntOp.andi_eq_one.1 h01
  exact ⟨isReal_of_all a0 _ _ _ _ h0, isReal_of_all a1 _ _ _ _ h1, isReal_of_all a2 _ _ _ _ h2,
    isReal_of_all a3 _ _ _ _ h3, isReal_of_all a4 _ _ _ _ h4, isReal_of_all a5 _ _ _ _ h5⟩

/-- THE PRECONDITION DECODED: on every device the six input arrays of the launch memory are real-valued. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Finite.IsReal (m ((c.tc : Thread Cert.KernelIdeal.nD Cert.KernelIdeal.τ).loc Cert.KernelIdeal.main_arg0) i))
      ∧ (∀ i, Cert.Finite.IsReal (m ((c.tc : Thread Cert.KernelIdeal.nD Cert.KernelIdeal.τ).loc Cert.KernelIdeal.main_arg1) i))
      ∧ (∀ i, Cert.Finite.IsReal (m ((c.tc : Thread Cert.KernelIdeal.nD Cert.KernelIdeal.τ).loc Cert.KernelIdeal.main_arg2) i))
      ∧ (∀ i, Cert.Finite.IsReal (m ((c.tc : Thread Cert.KernelIdeal.nD Cert.KernelIdeal.τ).loc Cert.KernelIdeal.main_arg3) i))
      ∧ (∀ i, Cert.Finite.IsReal (m ((c.tc : Thread Cert.KernelIdeal.nD Cert.KernelIdeal.τ).loc Cert.KernelIdeal.main_arg4) i))
      ∧ (∀ i, Cert.Finite.IsReal (m ((c.tc : Thread Cert.KernelIdeal.nD Cert.KernelIdeal.τ).loc Cert.KernelIdeal.main_arg5) i)) :=
  real_of_fn _ _ _ _ _ _ (congrFun (h c) ValueIdx.ix0)

end Cert.Proof.Finite

end
-- ==== Proof.lean ====
/-
  The certificate of a two-layer graph convolution with a dense adjacency matrix and a log-softmax head:
  a kernel program of three regions against its plain reference, over the extended reals.

  Both programs compute `logits = adj · (max (adj · (x · w1) + b1, 0) · w2) + b2` entry by entry as the same sums of
  products (a matrix product into a zero accumulator and the reference's product are one contraction; a change of float
  format is the identity), and then send each row `z` of the logits to its log-softmax.  The kernel writes
  `z q − (log ∑ exp (z − max z) + max z)`, the reference `(z q − max z) − log ∑ exp (z − max z)`.  Under the precondition
  every input is a real number, so every logit is real (sums, products and maxima of reals are real), and on a row of
  reals the two spellings agree whatever extended real the logarithm is: this is the one place finiteness is used.

  The frames of the two kernel programs are the generated ones; the reference's frame is its run with the result
  dropped; the idealization rewrote nothing, so `preserves` is trivial.
-/
import proofs.«113815_g45810121179222_cont_sun_c4_534_2_alg».proof.Defs
import proofs.«113815_g45810121179222_cont_sun_c4_534_2_alg».proof.Proof.Gen.Kernel
import proofs.«113815_g45810121179222_cont_sun_c4_534_2_alg».proof.Proof.Gen.Kernel.Skeleton
import proofs.«113815_g45810121179222_cont_sun_c4_534_2_alg».proof.Proof.Gen.Kernel.Launch
import proofs.«113815_g45810121179222_cont_sun_c4_534_2_alg».proof.Proof.Gen.Kernel.Points
import proofs.«113815_g45810121179222_cont_sun_c4_534_2_alg».proof.Proof.Gen.Kernel.Frame
import proofs.«113815_g45810121179222_cont_sun_c4_534_2_alg».proof.Proof.Gen.KernelIdeal
import proofs.«113815_g45810121179222_cont_sun_c4_534_2_alg».proof.Proof.Gen.KernelIdeal.Skeleton
import proofs.«113815_g45810121179222_cont_sun_c4_534_2_alg».proof.Proof.Gen.KernelIdeal.Launch
import proofs.«113815_g45810121179222_cont_sun_c4_534_2_alg».proof.Proof.Gen.KernelIdeal.Points
import proofs.«113815_g45810121179222_cont_sun_c4_534_2_alg».proof.Proof.Gen.KernelIdeal.Frame
import proofs.«113815_g45810121179222_cont_sun_c4_534_2_alg».proof.Proof.Gen.ReferenceIdeal
import proofs.«113815_g45810121179222_cont_sun_c4_534_2_alg».proof.Proof.Gen.Pre_finite_inputs
import proofs.«113815_g45810121179222_cont_sun_c4_534_2_alg».proof.Proof.KValue
import proofs.«113815_g45810121179222_cont_sun_c4_534_2_alg».proof.Proof.RefSpec
import proofs.«113815_g45810121179222_cont_sun_c4_534_2_alg».proof.Proof.Algebra
import proofs.«113815_g45810121179222_cont_sun_c4_534_2_alg».proof.Proof.Finite
import Idealize.ShloMosaic.Adequacy
import Idealize.ShloMosaic.Init

noncomputable section

namespace Cert.Proof

open Idealize.ShloMosaic Idealize.SL.Sem

namespace Claims

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both programs end with the same result: the kernel's `outK` and the reference's `outR` of the same real arrays. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨hx, hadj, hw1, hb1, hw2, hb2⟩ := Cert.Proof.Finite.real_of_pre m hpre c
  rw [(hagree c).1, (hagree c).2.1, (hagree c).2.2.1, (hagree c).2.2.2.1, (hagree c).2.2.2.2.1, (hagree c).2.2.2.2.2]
  rw [Cert.Gcn.out_eq _ _ _ _ _ _ hx hadj hw1 hb1 hw2 hb2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
